-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel

variable [Facts]

def fn {F : FTy → Type} [FloatOps F] (main_arg0 : FVec F S32x256x56x56 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  main_v3
-- ==== Kernel.lean ====
abbrev S32x256x56x56 : Shape := ⟨4, ![32, 256, 56, 56]⟩
abbrev S32x256x3136 : Shape := ⟨3, ![32, 256, 3136]⟩
abbrev S1x256x3136 : Shape := ⟨3, ![1, 256, 3136]⟩
abbrev S1x32x8x3136 : Shape := ⟨4, ![1, 32, 8, 3136]⟩
abbrev S1x32x3136 : Shape := ⟨3, ![1, 32, 3136]⟩
abbrev S1x32x1x3136 : Shape := ⟨4, ![1, 32, 1, 3136]⟩

abbrev nBuf : Space → Nat
  | .hbm => 4
  | .vmem => 4
  | .smem => 0
  | _ => 0

abbrev bufTy : (tb : Table) → Fin (tcTables nBuf tb) → BufTy
  | .hbm, ⟨0, _⟩ => ⟨S32x256x56x56, .f32⟩
  | .hbm, ⟨1, _⟩ => ⟨S32x256x3136, .f32⟩
  | .hbm, ⟨2, _⟩ => ⟨S32x256x3136, .f32⟩
  | .hbm, ⟨3, _⟩ => ⟨S32x256x56x56, .f32⟩
  | .local _ .vmem, ⟨0, _⟩ => ⟨S1x256x3136, .f32⟩
  | .local _ .vmem, ⟨1, _⟩ => ⟨S1x256x3136, .f32⟩
  | .local _ .vmem, ⟨2, _⟩ => ⟨S1x256x3136, .f32⟩
  | .local _ .vmem, ⟨3, _⟩ => ⟨S1x256x3136, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x3136 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x256x56x56_S32x256x3136 : S32x256x56x56.ShapeCasts S32x256x3136
  inb_S1x256x3136_S1x256x3136_0_0_0 : ∀ a, (![0, 0, 0] : Fin 3 → Nat) a + S1x256x3136.size a ≤ S1x256x3136.size a
  h_S1x256x3136 : 0 < S1x256x3136.numel
  shapeCasts_S1x256x3136_S1x256x3136 : S1x256x3136.ShapeCasts S1x256x3136
  shapeCasts_S1x256x3136_S1x32x8x3136 : S1x256x3136.ShapeCasts S1x32x8x3136
  reduces_S1x32x8x3136_S1x32x3136 : S1x32x8x3136.Reduces [2] S1x32x3136
  shapeCasts_S1x32x3136_S1x32x1x3136 : S1x32x3136.ShapeCasts S1x32x1x3136
  broadcasts_S1x32x1x3136_S1x32x8x3136 : S1x32x1x3136.Broadcasts S1x32x8x3136
  shapeCasts_S1x32x8x3136_S1x256x3136 : S1x32x8x3136.ShapeCasts S1x256x3136
  shapeCasts_S32x256x3136_S32x256x56x56 : S32x256x3136.ShapeCasts S32x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3136.size a ≤ S32x256x3136.size a
  hwx0_0 : ∀ i : grid0.Coords, EltTy.bits .f32 = 32 ∨ (Rect.block (s := S32x256x3136) S1x256x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3136.size a ≤ S32x256x3136.size a
  hwx0_1 : ∀ i : grid0.Coords, EltTy.bits .f32 = 32 ∨ (Rect.block (s := S32x256x3136) S1x256x3136.size (cc0_transform_1 i) (hinb0_1 i)).WholeWords (EltTy.packing .f32)

variable [Facts₀]

abbrev win0_0 : Pipeline.Window sig grid0 :=
  Pipeline.Window.ofSpec (Memref.whole main_v0) S1x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x3136.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S32x32x8x56x56 : Shape := ⟨5, ![32, 32, 8, 56, 56]⟩
abbrev S_ : Shape := ⟨0, ![]⟩
abbrev S32x32x56x56 : Shape := ⟨4, ![32, 32, 56, 56]⟩
abbrev S32x32x1x56x56 : Shape := ⟨5, ![32, 32, 1, 56, 56]⟩

abbrev nBuf : Space → Nat
  | .hbm => 11
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S32x32x8x56x56, .f32⟩
  | .hbm, ⟨2, _⟩ => ⟨S_, .f32⟩
  | .hbm, ⟨3, _⟩ => ⟨S32x32x56x56, .f32⟩
  | .hbm, ⟨4, _⟩ => ⟨S32x32x1x56x56, .f32⟩
  | .hbm, ⟨5, _⟩ => ⟨S32x32x8x56x56, .f32⟩
  | .hbm, ⟨6, _⟩ => ⟨S32x32x8x56x56, .f32⟩
  | .hbm, ⟨7, _⟩ => ⟨S_, .f32⟩
  | .hbm, ⟨8, _⟩ => ⟨S32x32x8x56x56, .f32⟩
  | .hbm, ⟨9, _⟩ => ⟨S32x32x8x56x56, .f32⟩
  | .hbm, ⟨10, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S32x256x56x56_S32x32x8x56x56 : S32x256x56x56.ShapeCasts S32x32x8x56x56
  reducesTo_S32x32x8x56x56_S32x32x56x56_d2 : S32x32x8x56x56.ReducesTo [2] S32x32x56x56
  h_S_ : 0 < S_.numel
  bcast_S32x32x56x56_S32x32x1x56x56_0_1_3_4 : S32x32x56x56.BroadcastsInDim S32x32x1x56x56 (![0, 1, 3, 4] : Fin 4 → Fin S32x32x1x56x56.rank)
  bcast_S32x32x1x56x56_S32x32x8x56x56_0_1_2_3_4 : S32x32x1x56x56.BroadcastsInDim S32x32x8x56x56 (![0, 1, 2, 3, 4] : Fin 5 → Fin S32x32x8x56x56.rank)
  bcast_S_S32x32x8x56x56 : S_.BroadcastsInDim S32x32x8x56x56 (![] : Fin 0 → Fin S32x32x8x56x56.rank)
  shapeCasts_S32x32x8x56x56_S32x256x56x56 : S32x32x8x56x56.ShapeCasts S32x256x56x56

variable [Facts₀]

class Facts : Prop extends Facts₀ where

variable [Facts]
-- ==== Proof.GroupSpec.lean ====
/-
  The function both programs compute, and the one law that joins their two spellings of it.

  The input is an array `x` over [32, 256, 56, 56]: batch, channel, row, column. The 256 channels fall into 32
  consecutive groups of 8: channel `c` lies in group `c / 8`, whose members are the channels `8 * (c / 8) + k` for
  `k < 8`. The result at `(b, c, h, w)` is, over the extended reals,

      x(b, c, h, w) · (Σ_{k < 8} x(b, 8 * (c / 8) + k, h, w)) · 2⁻⁵ .

  One program multiplies by the f32 word of 2⁻⁵, the other divides by the f32 word of 32. Both words are exact, and
  on the extended reals dividing by a nonzero real is multiplying by its reciprocal, at the infinities too, so the two
  are one function of every extended real: no finiteness is used anywhere.
-/
import Idealize.ShloMosaic.PureOps.Ideal
import Idealize.ShloMosaic.PureOps.Ideal.Laws
import Idealize.ShloMosaic.Lib.ValueIdx

noncomputable section

namespace Cert.GroupProduct

open Idealize.ShloMosaic Idealize.ShloMosaic.ValueIdx

/-- The `k`-th channel of the group that channel `c` lies in. -/
def sibling (c : Fin 256) (k : Fin 8) : Fin 256 := ⟨8 * (c.val / 8) + k.val, by omega⟩

/-- A channel is the member `c % 8` of its own group. -/
theorem own_member (c : Fin 256) : (⟨8 * (c.val / 8) + c.val % 8, by omega⟩ : Fin 256) = c :=
  Fin.ext (Nat.div_add_mod c.val 8)

/-- The word `0x42000000` is the real 32. -/
theorem word_32 : Ideal.ofBits .f32 0x42000000#32 = ((32 : ℝ) : EReal) := by
  simp [Ideal.ofBits, Ideal.ieee, -EReal.coe_mul]; norm_num

/-- The word `0x3D000000` is the real 2⁻⁵ = 1 / 32. -/
theorem word_inv_32 : Ideal.ofBits .f32 0x3D000000#32 = ((1 / 32 : ℝ) : EReal) := by
  simp [Ideal.ofBits, Ideal.ieee, -EReal.coe_mul]; norm_num

/-- Dividing by the word of 32 is multiplying by the word of 1 / 32, for every extended real. -/
theorem div_word_32 (s : EReal) :
    Ideal.div s (Ideal.ofBits .f32 0x42000000#32) = s * Ideal.ofBits .f32 0x3D000000#32 := by
  rw [word_32, word_inv_32]
  exact Ideal.div_coe (by norm_num : (32 : ℝ) ≠ 0) s

/-- The result array as one function of the input array. -/
def G (x : FVec Ideal ⟨4, ![32, 256, 56, 56]⟩ .f32) : FVec Ideal ⟨4, ![32, 256, 56, 56]⟩ .f32 :=
  fun i => (x i * ∑ k : Fin 8, x (ix4 (i 0) (sibling (i 1) k) (i 2) (i 3))) * Ideal.ofBits .f32 0x3D000000#32

/-- `G` at an index given by its four coordinates. -/
theorem G_apply (x : FVec Ideal ⟨4, ![32, 256, 56, 56]⟩ .f32) (b : Fin 32) (c : Fin 256) (h w : Fin 56) :
    G x (ix4 b c h w)
      = (x (ix4 b c h w) * ∑ k : Fin 8, x (ix4 b (sibling c k) h w)) * Ideal.ofBits .f32 0x3D000000#32 := rfl

end Cert.GroupProduct

end
-- ==== Proof.BodyValue.lean ====
/-
  What the kernel body computes from one block, entry by entry.

  A block is one batch entry: an array `v` over [1, 256, 3136] (channel, flattened position `p = 56 * h + w`). The body
  regroups the channels, [1, 256, 3136] → [1, 32, 8, 3136] (channel `c` is member `c % 8` of group `c / 8`, both
  layouts row-major), sums over the members of each group, spreads that sum back over the members, multiplies it
  into the regrouped block, scales by the word of 2⁻⁵ and undoes the regrouping. So the entry `(z, c, p)` of what it
  stores is

      v(z, c, p) · (Σ_{k < 8} v(z, 8 * (c / 8) + k, p)) · 2⁻⁵ ,

  and depends only on the eight channels of `c`'s own group at the same position `p`. Each operation is read at an
  index by one small lemma; the payload lemma chains them.
-/
import proofs.«179244_j85985245265995_2_alg».proof.Proof.Gen.KernelIdeal.Skeleton
import proofs.«179244_j85985245265995_2_alg».proof.Proof.GroupSpec
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen
open Idealize.ShloMosaic Idealize.ShloMosaic.ValueIdx Cert.GroupProduct

variable {α : Type}

/-- Regrouping the channels: the entry `(z, g, j, p)` of the regrouped block is the entry `(z, 8 * g + j, p)`. -/
theorem regroup_apply (v : S1x256x3136.Idx → α) (hc : S1x256x3136.ShapeCasts S1x32x8x3136)
    (z : Fin 1) (g : Fin 32) (j : Fin 8) (p : Fin 3136) :
    shapeCast S1x32x8x3136 v hc (ix4 z g j p) = v (ix3 z (⟨8 * g.val + j.val, by omega⟩ : Fin 256) p) :=
  shapeCast_apply v hc _ _ (by
    rw [Shape.rowMajor_val_three, Shape.rowMajor_val_four]
    show (z.val * 256 + (8 * g.val + j.val)) * 3136 + p.val = ((z.val * 32 + g.val) * 8 + j.val) * 3136 + p.val
    omega)

/-- And back: the entry `(z, c, p)` of the flat block is the entry `(z, c / 8, c % 8, p)` of the regrouped one. -/
theorem ungroup_apply (u : S1x32x8x3136.Idx → α) (hc : S1x32x8x3136.ShapeCasts S1x256x3136)
    (z : Fin 1) (c : Fin 256) (p : Fin 3136) :
    shapeCast S1x256x3136 u hc (ix3 z c p)
      = u (ix4 z (⟨c.val / 8, by omega⟩ : Fin 32) (⟨c.val % 8, Nat.mod_lt _ (by decide)⟩ : Fin 8) p) :=
  shapeCast_apply u hc _ _ (by
    rw [Shape.rowMajor_val_four, Shape.rowMajor_val_three]
    show ((z.val * 32 + c.val / 8) * 8 + c.val % 8) * 3136 + p.val = (z.val * 256 + c.val) * 3136 + p.val
    omega)

/-- The group sums given back their member axis, of extent one: the entry `(z, g, 0, p)` is the sum `(z, g, p)`. -/
theorem keepdims_apply (s : S1x32x3136.Idx → α) (hc : S1x32x3136.ShapeCasts S1x32x1x3136)
    (z : Fin 1) (g : Fin 32) (o : Fin 1) (p : Fin 3136) :
    shapeCast S1x32x1x3136 s hc (ix4 z g o p) = s (ix3 z g p) :=
  shapeCast_apply s hc _ _ (by
    rw [Shape.rowMajor_val_three, Shape.rowMajor_val_four]
    have ho := o.isLt
    show (z.val * 32 + g.val) * 3136 + p.val = ((z.val * 32 + g.val) * 1 + o.val) * 3136 + p.val
    omega)

/-- Spread over the members: every member `j` of group `g` reads the one entry `(z, g, 0, p)`. -/
theorem spread_apply (v : S1x32x1x3136.Idx → α) (hb : S1x32x1x3136.Broadcasts S1x32x8x3136)
    (z : Fin 1) (g : Fin 32) (j : Fin 8) (p : Fin 3136) :
    broadcastTo S1x32x8x3136 v hb (ix4 z g j p) = v (ix4 z g (0 : Fin 1) p) :=
  broadcastTo_apply v hb _ _ (fun a => match a with
    | ⟨0, _⟩ => by
      show z.val = if (1 : Nat) = 1 then 0 else z.val
      rw [if_pos rfl]; have hz := z.isLt; omega
    | ⟨1, _⟩ => by show g.val = if (32 : Nat) = 1 then 0 else g.val; rw [if_neg (by decide)]
    | ⟨2, _⟩ => by show 0 = if (1 : Nat) = 1 then 0 else j.val; rw [if_pos rfl]
    | ⟨3, _⟩ => by show p.val = if (3136 : Nat) = 1 then 0 else p.val; rw [if_neg (by decide)])

/-- The sum over the member axis at `(z, g, p)` is the sum of the eight entries `(z, g, k, p)`: the accumulator is
    the neutral word, so nothing is added to it. -/
theorem group_sum_apply (v : FVec Ideal S1x32x8x3136 .f32) (hr : S1x32x8x3136.Reduces [2] S1x32x3136)
    (hφ : FKind.Formats .f32) (hacc : (0x00000000#32 : BitVec 32) = 0x00000000#32)
    (z : Fin 1) (g : Fin 32) (p : Fin 3136) :
    multiReduction .add [2] S1x32x3136 v 0x00000000#32 hr hφ hacc (ix3 z g p) = ∑ k : Fin 8, v (ix4 z g k p) := by
  refine (Ideal.multiReduction_add_single v 0x00000000#32 hr hφ hacc (ix3 z g p)).trans ?_
  refine Finset.sum_congr rfl fun k _ => congrArg v ?_
  funext a; apply Fin.ext
  match a with
  | ⟨0, _⟩ => rfl
  | ⟨1, _⟩ => rfl
  | ⟨2, _⟩ => rfl
  | ⟨3, _⟩ => rfl

/-- THE BODY'S STORED VALUE at `(z, c, p)`: the block's entry there, times the sum of the block over `c`'s group at
    `p`, times the word of 2⁻⁵. -/
theorem payload_apply (v : Vec Ideal S1x256x3136 .f32) (z : Fin 1) (c : Fin 256) (p : Fin 3136) :
    k0_pay1 (F := Ideal) v (ix3 z c p)
      = (v (ix3 z c p) * ∑ k : Fin 8, v (ix3 z (sibling c k) p)) * Ideal.ofBits .f32 0x3D000000#32 := by
  unfold k0_pay1
  simp only []
  rw [ungroup_apply, mulf_apply, mulf_apply, broadcast_apply, spread_apply, keepdims_apply, group_sum_apply,
    regroup_apply, shapeCast_self, own_member]
  simp only [regroup_apply, shapeCast_self]
  rfl

end Cert.KernelIdeal.BodyValue

end
-- ==== Proof.FlatSpec.lean ====
/-
  The same function on the flattened layout.

  One program works on [32, 256, 3136], the two position axes merged into one, `p = 56 * h + w`; both layouts are
  row-major, so `(b, c, h, w)` and `(b, c, 56 * h + w)` sit at the same place. On that layout the function is

      X(b, c, p) · (Σ_{k < 8} X(b, 8 * (c / 8) + k, p)) · 2⁻⁵ :

  the channel axis is untouched by the merge, so the group of a channel is what it was. Merging the position axes,
  applying this, and splitting them again is `G`.
-/
import proofs.«179244_j85985245265995_2_alg».proof.Proof.GroupSpec
import Idealize.ShloMosaic.Lib.Pipeline.Value
import Idealize.ShloMosaic.Lib.ValueIdx

noncomputable section

namespace Cert.GroupProduct

open Idealize.ShloMosaic Idealize.ShloMosaic.ValueIdx

/-- The result on the flattened layout as one function of the flattened input. -/
def Gflat (X : FVec Ideal ⟨3, ![32, 256, 3136]⟩ .f32) : FVec Ideal ⟨3, ![32, 256, 3136]⟩ .f32 :=
  fun i => (X i * ∑ k : Fin 8, X (ix3 (i 0) (sibling (i 1) k) (i 2))) * Ideal.ofBits .f32 0x3D000000#32

/-- `Gflat` at an index given by its three coordinates. -/
theorem Gflat_apply (X : FVec Ideal ⟨3, ![32, 256, 3136]⟩ .f32) (b : Fin 32) (c : Fin 256) (p : Fin 3136) :
    Gflat X (ix3 b c p)
      = (X (ix3 b c p) * ∑ k : Fin 8, X (ix3 b (sibling c k) p)) * Ideal.ofBits .f32 0x3D000000#32 := rfl

variable {α : Type}

/-- Merging the position axes: the entry `(b, c, 56 * h + w)` of the flattened array is the entry `(b, c, h, w)`. -/
theorem flatten_apply (x : (⟨4, ![32, 256, 56, 56]⟩ : Shape).Idx → α)
    (hf : Shape.ShapeCasts ⟨4, ![32, 256, 56, 56]⟩ ⟨3, ![32, 256, 3136]⟩) (b : Fin 32) (c : Fin 256) (h w : Fin 56) :
    shapeCast ⟨3, ![32, 256, 3136]⟩ x hf (ix3 b c (⟨56 * h.val + w.val, by omega⟩ : Fin 3136)) = x (ix4 b c h w) :=
  shapeCast_apply x hf _ _ (by
    rw [Shape.rowMajor_val_four, Shape.rowMajor_val_three]
    show ((b.val * 256 + c.val) * 56 + h.val) * 56 + w.val = (b.val * 256 + c.val) * 3136 + (56 * h.val + w.val)
    omega)

/-- Splitting them again: the entry `(b, c, h, w)` is the entry `(b, c, 56 * h + w)` of the flattened array. -/
theorem unflatten_apply (X : (⟨3, ![32, 256, 3136]⟩ : Shape).Idx → α)
    (hu : Shape.ShapeCasts ⟨3, ![32, 256, 3136]⟩ ⟨4, ![32, 256, 56, 56]⟩) (b : Fin 32) (c : Fin 256) (h w : Fin 56) :
    shapeCast ⟨4, ![32, 256, 56, 56]⟩ X hu (ix4 b c h w) = X (ix3 b c (⟨56 * h.val + w.val, by omega⟩ : Fin 3136)) :=
  shapeCast_apply X hu _ _ (by
    rw [Shape.rowMajor_val_three, Shape.rowMajor_val_four]
    show (b.val * 256 + c.val) * 3136 + (56 * h.val + w.val) = ((b.val * 256 + c.val) * 56 + h.val) * 56 + w.val
    omega)

/-- Merge, apply `Gflat`, split: that is `G`. -/
theorem unflatten_Gflat_flatten (x : FVec Ideal ⟨4, ![32, 256, 56, 56]⟩ .f32)
    (hf : Shape.ShapeCasts ⟨4, ![32, 256, 56, 56]⟩ ⟨3, ![32, 256, 3136]⟩)
    (hu : Shape.ShapeCasts ⟨3, ![32, 256, 3136]⟩ ⟨4, ![32, 256, 56, 56]⟩) :
    shapeCast ⟨4, ![32, 256, 56, 56]⟩ (Gflat (shapeCast ⟨3, ![32, 256, 3136]⟩ x hf)) hu = G x := by
  funext i
  obtain ⟨b, c, h, w, rfl⟩ : ∃ (b : Fin 32) (c : Fin 256) (h w : Fin 56), i = ix4 b c h w :=
    ⟨i 0, i 1, i 2, i 3, eq_ix4 i⟩
  rw [unflatten_apply, Gflat_apply, G_apply, flatten_apply]
  simp only [flatten_apply]

end Cert.GroupProduct

end
-- ==== Proof.RegionValue.lean ====
/-
  The array the region leaves: `Gflat` of the array it finds.

  The grid has 32 points, one per batch entry. At point `t` the body is handed the block `[t, 0 .. 256, 0 .. 3136]` of
  the input array and its one store fills the block at the same place of the output array: both index maps send
  `t` to the block index `(t, 0, 0)`. What the body stores at `(z, c, p)` depends only on the eight channels of
  `c`'s group at position `p` of the SAME batch entry, all of which lie inside that one block, so the block written
  back at point `t` is exactly block `t` of `Gflat` of the whole input array. The 32 blocks tile the output array (the
  index `(b, c, p)` lies in the block of point `b`), so after the run the output array is `Gflat` of the input
  array, everywhere.

  The input array itself is the launched argument with its two position axes merged, the one host operation before
  the region.
-/
import proofs.«179244_j85985245265995_2_alg».proof.Proof.Gen.KernelIdeal.Frame
import proofs.«179244_j85985245265995_2_alg».proof.Proof.BodyValue
import proofs.«179244_j85985245265995_2_alg».proof.Proof.FlatSpec
import Idealize.ShloMosaic.Lib.Pipeline.Value
import Idealize.ShloMosaic.Lib.StableHlo.Run
import Idealize.ShloMosaic.Lib.ValueIdx

set_option maxRecDepth 16384

noncomputable section

namespace Cert.KernelIdeal.RegionValue

open Cert.KernelIdeal Cert.KernelIdeal.Gen Cert.KernelIdeal.BodyValue
open Idealize.ShloMosaic Idealize.ShloMosaic.TcCoe Idealize.SL.Sem
open Idealize.ShloMosaic.ValueIdx Cert.GroupProduct
open Idealize.ShloMosaic.Pipeline (Dat)

variable (m : (ℓ : Loc nD τ sig) → Buf (Elt Ideal) ℓ)

/-- The body's one load and one store are through the whole block: all offsets zero. -/
theorem zero_offsets : (![0, 0, 0] : Fin 3 → Nat) = fun _ => 0 := funext fun a => by fin_cases a <;> rfl

/-- The array the region finds is the launched argument with its position axes merged. -/
theorem entry_array (c : Dev nD) :
    (V m c main_v0 : S32x256x3136.Idx → EReal)
      = shapeCast S32x256x3136 (m ((c : Thread nD τ).loc main_arg0)) shapeCasts_S32x256x56x56_S32x256x3136 := by
  show StableHlo.after hostOps0 (fun b => m (c, b)) (Proc.devRef .tc main_v0) = _
  after_results
  rfl

/-- Both index maps send point `t` to the block index `(t, 0, 0)`: decided over the 32 points. -/
theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- One point, stated over plain arrays: if the block `v` is batch entry `tb` of the array `X`, then what the body
    stores at `j` is `Gflat X` at the index `i` with batch coordinate `tb` and `j`'s channel and position. -/
theorem point_value (X : FVec Ideal S32x256x3136 .f32) (v : Vec Ideal S1x256x3136 .f32) (tb : Fin 32)
    (hv : ∀ (z : Fin 1) (ch : Fin 256) (p : Fin 3136), v (ix3 z ch p) = X (ix3 tb ch p))
    (j : S1x256x3136.Idx) (i : S32x256x3136.Idx)
    (hi0 : (i 0).val = tb.val) (hi1 : (i 1).val = (j 1).val) (hi2 : (i 2).val = (j 2).val) :
    k0_pay1 (F := Ideal) v j = Gflat X i := by
  obtain ⟨z, ch, p, rfl⟩ : ∃ (z : Fin 1) (ch : Fin 256) (p : Fin 3136), j = ix3 z ch p := ⟨j 0, j 1, j 2, eq_ix3 j⟩
  obtain rfl : i = ix3 tb ch p := by
    funext a; apply Fin.ext
    match a with
    | ⟨0, _⟩ => exact hi0
    | ⟨1, _⟩ => exact hi1
    | ⟨2, _⟩ => exact hi2
  rw [payload_apply, Gflat_apply, hv]
  simp only [hv]

/-- WHAT POINT `t` WRITES BACK is block `t` of `Gflat` of the array the region finds. -/
theorem flushed_eq (c : Dev nD) (t : Fin cfg0.N) :
    (dats m 0 c).flushed 1 t = ((cfg0.win 1).blk t).view.read (Elt Ideal) (Gflat (V m c main_v0)) := by
  show (cfg0.win 1).cut (grid0.coords t) ((dats m 0 c).after 1 t) = _
  rw [after0_1]
  unfold out0_1
  rw [View.canon_unit_zero zero_offsets]
  simp only [View.ld_unit_zero (S := S1x256x3136) zero_offsets]
  obtain ⟨e0, e1, e2, f0, f1, f2⟩ := block_indices t
  have ht : t.val < 32 := lt_of_lt_of_eq t.isLt (show cfg0.N = 32 from N_0)
  funext j
  show k0_pay1 (F := Ideal) (iblk m c 0 t) j = Gflat (V m c main_v0) (((cfg0.win 1).blk t).view.emb j)
  have hj0 : (j 0).val < 1 := (j 0).isLt
  refine point_value (V m c main_v0) (iblk m c 0 t) ⟨t.val, ht⟩ (fun z ch p => ?_) j _ ?_ ?_ ?_
  · show V m c main_v0 (((cfg0.win 0).blk t).view.emb (ix3 z ch p)) = V m c main_v0 (ix3 ⟨t.val, ht⟩ ch p)
    have h0 : ((cfg0.win 0).blk t).view.emb (ix3 z ch p) = ix3 (⟨t.val, ht⟩ : Fin 32) ch p := by
      have hz := z.isLt
      funext a; apply Fin.ext
      match a with
      | ⟨0, _⟩ => show win0_0.index t (0 : Fin 3) * 1 + 1 * z.val = t.val; omega
      | ⟨1, _⟩ => show win0_0.index t (1 : Fin 3) * 256 + 1 * ch.val = ch.val; omega
      | ⟨2, _⟩ => show win0_0.index t (2 : Fin 3) * 3136 + 1 * p.val = p.val; omega
    rw [h0]
  · show win0_1.index t (0 : Fin 3) * 1 + 1 * (j 0).val = t.val; omega
  · show win0_1.index t (1 : Fin 3) * 256 + 1 * (j 1).val = (j 1).val; omega
  · show win0_1.index t (2 : Fin 3) * 3136 + 1 * (j 2).val = (j 2).val; omega

/-- An index of the output array is in point `t`'s block iff each coordinate is in the block's range on its axis. -/
theorem mem_block (t : Fin cfg0.N) (i : S32x256x3136.Idx) :
    i ∈ ((cfg0.win 1).blk t).view.set ↔ ∀ a : Fin 3, win0_1.index t a * S1x256x3136.size a ≤ (i a).val
      ∧ (i a).val < win0_1.index t a * S1x256x3136.size a + S1x256x3136.size a := by
  show i ∈ ((View.whole main_v1).slice (win0_1.rect t)).set ↔ _
  rw [View.set_slice_whole, Rect.mem_set_unit]
  exact Iff.rfl

/-- The blocks tile the output array: the index `(b, c, p)` lies in the block of point `b`. -/
theorem covered (i : S32x256x3136.Idx) :
    ∃ t : Fin cfg0.N, (cfg0.win 1).flush t = true ∧ i ∈ ((cfg0.win 1).blk t).view.set := by
  have h0 : (i 0).val < 32 := (i 0).isLt
  have h1 : (i 1).val < 256 := (i 1).isLt
  have h2 : (i 2).val < 3136 := (i 2).isLt
  have hN : (i 0).val < cfg0.N := by rw [show cfg0.N = grid0.N from rfl, N_0]; exact h0
  obtain ⟨t, htv⟩ : ∃ t : Fin cfg0.N, t.val = (i 0).val := ⟨⟨(i 0).val, hN⟩, rfl⟩
  obtain ⟨-, -, -, f0, f1, f2⟩ := block_indices t
  refine ⟨t, flush0_1 t, ?_⟩
  rw [mem_block]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 256 ≤ (i 1).val ∧ (i 1).val < win0_1.index t (1 : Fin 3) * 256 + 256; omega
  | ⟨2, _⟩ => show win0_1.index t (2 : Fin 3) * 3136 ≤ (i 2).val ∧ (i 2).val < win0_1.index t (2 : Fin 3) * 3136 + 3136; omega

/-- THE OUTPUT ARRAY after the run is `Gflat` of the array the region finds. -/
theorem region_result (c : Dev nD) : (dats m 0 c).arrAt 1 cfg0.N = Gflat (V m c main_v0) :=
  (dats m 0 c).arrAt_eq_of_cover 1 (Gflat (V m c main_v0)) (fun t _ => flushed_eq m c t) covered

end Cert.KernelIdeal.RegionValue

end
-- ==== Proof.KernelValue.lean ====
/-
  The kernel program's result is `G` of its argument.

  Around the region the program does two host operations: before it, the argument's two position axes are merged,
  [32, 256, 56, 56] → [32, 256, 3136]; after it, the region's output array has them split again. The region turns
  the merged array `X` into `Gflat X`. So the result buffer holds: merge, `Gflat`, split — which is `G`. The run
  itself (every fair execution terminates, nothing faults, the argument is left as launched) is the generated frame
  run; here its post is read at the result buffer.
-/
import proofs.«179244_j85985245265995_2_alg».proof.Proof.Gen.KernelIdeal.Frame
import proofs.«179244_j85985245265995_2_alg».proof.Proof.RegionValue
import Idealize.ShloMosaic.Lib.StableHlo.Run

set_option maxRecDepth 16384

noncomputable section

namespace Cert.KernelIdeal.KernelValue

open Cert.KernelIdeal Cert.KernelIdeal.Gen Cert.KernelIdeal.RegionValue
open Idealize.ShloMosaic Idealize.ShloMosaic.TcCoe Idealize.SL.Sem Cert.GroupProduct
open Idealize.ShloMosaic.Pipeline (Dat)

variable (m : (ℓ : Loc nD τ sig) → Buf (Elt Ideal) ℓ) (ρ : Dev nD → PrngReg)

/-- The result buffer after the host operation that follows the region: the region's output array with its
    position axes split again. -/
theorem tail_result (c : Dev nD) :
    Pipeline.afterTail₀ cfgs (dats m) 0 (V0 m) [hostOps1] c main_v2
      = shapeCast S32x256x56x56 ((dats m 0 c).arrAt 1 cfg0.N) shapeCasts_S32x256x3136_S32x256x56x56 := by
  unfold Pipeline.afterTail₀
  show StableHlo.after hostOps1 _ (Proc.devRef .tc main_v2) = _
  after_results
  exact congrArg (fun A => shapeCast S32x256x56x56 A shapeCasts_S32x256x3136_S32x256x56x56)
    (Pipeline.withArrays_arr spec0 launch0.win.arr_inj c _ _ 1)

/-- So the result buffer is `G` of the launched argument: merge, `Gflat`, split. -/
theorem result_eq (c : Dev nD) :
    Pipeline.afterTail₀ cfgs (dats m) 0 (V0 m) [hostOps1] c main_v2 = G (m ((c : Thread nD τ).loc main_arg0)) := by
  rw [tail_result, region_result, entry_array]
  exact unflatten_Gflat_flatten _ _ _

/-- THE KERNEL PROGRAM'S RUN with its result named: every fair execution terminates, faultless, with the result
    buffer at `G` of the argument and the argument as launched. -/
theorem run : θ_run defs (onTc (τ := τ) (main (F := Ideal))) ⟨m, fun _ => 0, ρ⟩ fun r => ∀ c : Dev nD,
      r.2.mem ((c.tc : Thread nD τ).loc main_v2) = G (m ((c.tc : Thread nD τ).loc main_arg0))
      ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans (result_eq m c),
     ((h c).2 main_arg0 (Pipeline.mem_restRefs_of main_arg0 (by decide) (by decide))).trans (W_main_arg0 m (dats m) c)⟩)
    (run_main m ρ)

end Cert.KernelIdeal.KernelValue

end
-- ==== Proof.ReferenceValue.lean ====
/-
  The reference's result is `G` of its argument, index by index.

  The reference regroups the channel axis, [32, 256, 56, 56] → [32, 32, 8, 56, 56]: both layouts are row-major, so
  channel `c` becomes (group `c / 8`, member `c % 8`) and nothing else moves. It sums over the member axis, spreads
  the sum back over the members, multiplies by the regrouped input, divides by 32 and undoes the regrouping. So at
  `(b, c, h, w)` it holds `(x(b, c, h, w) · (0 + Σ_k x(b, 8 * (c / 8) + k, h, w))) / 32`: the zero drops, and the
  quotient by 32 is the product with 2⁻⁵.
-/
import proofs.«179244_j85985245265995_2_alg».proof.Proof.Gen.ReferenceIdeal.Read
import proofs.«179244_j85985245265995_2_alg».proof.Proof.GroupSpec
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.GroupProduct

/-- Regrouping the channels: the position of `(b, c, h, w)` in [32, 256, 56, 56] is the position of
    `(b, c / 8, c % 8, h, w)` in [32, 32, 8, 56, 56]. -/
theorem split_channel (b : Fin 32) (c : Fin 256) (h w : Fin 56) :
    idx_main_v7 (ix4 b c h w) = ix5 b (⟨c.val / 8, by omega⟩ : Fin 32) (⟨c.val % 8, Nat.mod_lt _ (by decide)⟩ : Fin 8) h w := by
  have hb := b.isLt; have hc := c.isLt; have hh := h.isLt; have hw := w.isLt
  funext a; apply Fin.ext
  match a with
  | ⟨0, _⟩ => show (((b.val * 256 + c.val) * 56 + h.val) * 56 + w.val) / 802816 = b.val; omega
  | ⟨1, _⟩ => show (((b.val * 256 + c.val) * 56 + h.val) * 56 + w.val) / 25088 % 32 = c.val / 8; omega
  | ⟨2, _⟩ => show (((b.val * 256 + c.val) * 56 + h.val) * 56 + w.val) / 3136 % 8 = c.val % 8; omega
  | ⟨3, _⟩ => show (((b.val * 256 + c.val) * 56 + h.val) * 56 + w.val) / 56 % 56 = h.val; omega
  | ⟨4, _⟩ => show (((b.val * 256 + c.val) * 56 + h.val) * 56 + w.val) % 56 = w.val; omega

/-- And back: `(b, g, j, h, w)` sits where `(b, 8 * g + j, h, w)` does. -/
theorem merge_channel (b g : Fin 32) (j : Fin 8) (h w : Fin 56) :
    idx_main_v0 (ix5 b g j h w) = ix4 b (⟨8 * g.val + j.val, by omega⟩ : Fin 256) h w := by
  have hb := b.isLt; have hg := g.isLt; have hj := j.isLt; have hh := h.isLt; have hw := w.isLt
  funext a; apply Fin.ext
  match a with
  | ⟨0, _⟩ => show ((((b.val * 32 + g.val) * 8 + j.val) * 56 + h.val) * 56 + w.val) / 802816 = b.val; omega
  | ⟨1, _⟩ => show ((((b.val * 32 + g.val) * 8 + j.val) * 56 + h.val) * 56 + w.val) / 3136 % 256 = 8 * g.val + j.val; omega
  | ⟨2, _⟩ => show ((((b.val * 32 + g.val) * 8 + j.val) * 56 + h.val) * 56 + w.val) / 56 % 56 = h.val; omega
  | ⟨3, _⟩ => show ((((b.val * 32 + g.val) * 8 + j.val) * 56 + h.val) * 56 + w.val) % 56 = w.val; omega

/-- The `k`-th summand of the group sum that is spread back to `(b, g, j, h, w)` is the entry `(b, g, k, h, w)`:
    the sum forgets the member `j` and runs over all of them. -/
theorem group_member (b g : Fin 32) (j : Fin 8) (h w : Fin 56) (k : Fin 8) :
    idx_main_v1 (idx_main_v2 (idx_main_v3 (ix5 b g j h w))) k = ix5 b g k h w := by
  funext a; apply Fin.ext
  match a with
  | ⟨0, _⟩ => rfl
  | ⟨1, _⟩ => rfl
  | ⟨2, _⟩ => rfl
  | ⟨3, _⟩ => rfl
  | ⟨4, _⟩ => rfl

/-- The reference's last stage is `G` of the argument. -/
theorem result_eq (x : (⟨S32x256x56x56, .f32⟩ : BufTy).Contents (Elt Ideal)) :
    val_main_v7 (F := Ideal) x = G x := by
  funext i
  obtain ⟨b, c, h, w, rfl⟩ : ∃ (b : Fin 32) (c : Fin 256) (h w : Fin 56), i = ix4 b c h w :=
    ⟨i 0, i 1, i 2, i 3, eq_ix4 i⟩
  rw [val_main_v7_apply, split_channel, val_main_v6_apply, val_main_v4_apply, val_main_v5_apply,
    val_main_cst_0_apply, val_main_v0_apply, val_main_v3_apply, val_main_v2_apply, val_main_v1_apply,
    val_main_cst_apply, merge_channel, own_member, G_apply]
  simp only [val_main_v0_apply, group_member, merge_channel, Ideal.hostDivf_def, Ideal.mulf_def, Ideal.ofBits_def,
    Ideal.ofBits_zero_f32, zero_add, div_word_32]
  rfl

end Cert.ReferenceIdeal.RefValue

end
-- ==== Proof.lean ====
/-
  Grouped channel products: a tiled kernel against its plain reference, equal over the extended reals.

  The input `x` is an array over [32, 256, 56, 56] (batch, channel, row, column); the 256 channels form 32 consecutive
  groups of 8. Both programs compute, at `(b, c, h, w)`,

      x(b, c, h, w) · (Σ_{k < 8} x(b, 8 * (c / 8) + k, h, w)) · 2⁻⁵

  (Proof/GroupSpec.lean, `G`). The kernel program merges the two position axes, hands the region one batch entry per
  grid point, and splits the axes again; inside a point the body regroups the channels, sums each group, spreads the
  sum back, multiplies and scales by the word of 2⁻⁵ (Proof/BodyValue.lean; the blocks assembled into the array in
  Proof/RegionValue.lean; the two host reshapes in Proof/FlatSpec.lean and Proof/KernelValue.lean). The reference
  regroups the whole array at once, sums, multiplies and DIVIDES by the word of 32 (Proof/ReferenceValue.lean).
  The two differ only in that last step, and on the extended reals dividing by the real 32 is multiplying by 1 / 32,
  at the infinities too; sums and products are otherwise taken over the same entries. Nothing in the argument needs
  the inputs to be finite, so the precondition is never opened.

  The three frame claims are the generated frame runs (the reference's with its result dropped); the kernel's
  idealization rewrote no operation, so there is nothing to preserve; the value claim names both results `G` of the
  shared argument.
-/
import proofs.«179244_j85985245265995_2_alg».proof.Defs
import proofs.«179244_j85985245265995_2_alg».proof.Proof.Gen.Kernel
import proofs.«179244_j85985245265995_2_alg».proof.Proof.Gen.Kernel.Skeleton
import proofs.«179244_j85985245265995_2_alg».proof.Proof.Gen.Kernel.Launch
import proofs.«179244_j85985245265995_2_alg».proof.Proof.Gen.Kernel.Points
import proofs.«179244_j85985245265995_2_alg».proof.Proof.Gen.Kernel.Frame
import proofs.«179244_j85985245265995_2_alg».proof.Proof.Gen.KernelIdeal
import proofs.«179244_j85985245265995_2_alg».proof.Proof.Gen.KernelIdeal.Skeleton
import proofs.«179244_j85985245265995_2_alg».proof.Proof.Gen.KernelIdeal.Launch
import proofs.«179244_j85985245265995_2_alg».proof.Proof.Gen.KernelIdeal.Points
import proofs.«179244_j85985245265995_2_alg».proof.Proof.Gen.KernelIdeal.Frame
import proofs.«179244_j85985245265995_2_alg».proof.Proof.Gen.ReferenceIdeal
import proofs.«179244_j85985245265995_2_alg».proof.Proof.Gen.ReferenceIdeal.Run
import proofs.«179244_j85985245265995_2_alg».proof.Proof.Gen.ReferenceIdeal.Read
import proofs.«179244_j85985245265995_2_alg».proof.Proof.Gen.Pre_finite_inputs
import proofs.«179244_j85985245265995_2_alg».proof.Proof.KernelValue
import proofs.«179244_j85985245265995_2_alg».proof.Proof.ReferenceValue
import Idealize.ShloMosaic.Adequacy
import Idealize.ShloMosaic.Init

noncomputable section

namespace Cert.Proof

open Idealize.ShloMosaic Idealize.ShloMosaic.TcCoe Idealize.SL.Sem Cert.GroupProduct

/-- The kernel program as printed runs and leaves its argument as launched. -/
theorem frame_kernel : Cert.frame_Kernel := fun m ρ _ => Cert.Kernel.Gen.frame m ρ

/-- So does the same program read over the extended reals. -/
theorem frame_kernel_ideal : Cert.frame_KernelIdeal := fun m ρ _ => Cert.KernelIdeal.Gen.frame m ρ

/-- And the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals, from memories that agree on the argument, both programs end with the result at `G` of
    that argument: the kernel program by its run read at the result buffer, the reference by its run, its last stage
    being `G`, and the agreement. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  exact ((h c).1.trans (Cert.ReferenceIdeal.Read.val_main_v7_eq _)).trans
    ((Cert.ReferenceIdeal.RefValue.result_eq _).trans (congrArg G (hagree c)))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
